-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := mulf main_arg0 main_arg0
  let main_cst_0 : FVec F S_ .f32 := constant S_ .f32 0x00000000#32
  let main_v5 : FVec F S8192 .f32 := (fun x v => Host.reduceAdd x v reducesTo_S8192x128_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x1 : Shape := ⟨2, ![256, 1]⟩
abbrev S256x128 : Shape := ⟨2, ![256, 128]⟩
abbrev S1x256 : Shape := ⟨2, ![1, 256]⟩
abbrev S256x1024 : Shape := ⟨2, ![256, 1024]⟩
abbrev S1024x128 : Shape := ⟨2, ![1024, 128]⟩
abbrev S1x1024 : Shape := ⟨2, ![1, 1024]⟩
abbrev S256 : Shape := ⟨1, ![256]⟩

abbrev nBuf : Space → Nat
  | .hbm => 15
  | .vmem => 4
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S1x8192, .i32⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S1x8192, .i32⟩
  | .local _ .vmem, ⟨2, _⟩ => ⟨S256x1, .f32⟩
  | .local _ .vmem, ⟨3, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let c0_0 : Index := 0#32
  let arg0 : BitVec 32 := BitVec.ofNat 32 (i 0).val
  let c256_i32 : BitVec 32 := 256#32
  let v0 : BitVec 32 := Scalar.muli arg0 c256_i32
  let v1 : BitVec 32 := v0
  let v5 : Index := Scalar.indexCast v1
  ![0, v5.toNat]
@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v19 : BitVec 32 := Scalar.muli arg4 c1024_i32
  v19
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32 : BitVec 32 := 1024#32
  let v19 : BitVec 32 := Scalar.muli arg4 c1024_i32
  let v20 : BitVec 32 := v19
  let v21 : Index := Scalar.indexCast v20
  let c0_5 : Index := 0#32
  ![v21.toNat, 0]
def k0_off4 (k0_t1 : Fin k0_t1_loop.trips) : Fin 2 → Nat :=
  let c0_6 : Index := 0#32
  let c0_i32 : BitVec 32 := 0#32
  let c1_i32 : BitVec 32 := 1#32
  let arg4 : BitVec 32 := Scf.iv c0_i32 c1_i32 k0_t1
  let c1024_i32 : BitVec 32 := 1024#32
  let v19 : BitVec 32 := Scalar.muli arg4 c1024_i32
  let v20 : BitVec 32 := v19
  let v24 : Index := Scalar.indexCast v20
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  shapeCasts_S8192_S1x8192 : S8192.ShapeCasts S1x8192
  h_S256x128 : 0 < S256x128.numel
  shapeCasts_S256x128_S256x128 : S256x128.ShapeCasts S256x128
  h_S1x256 : 0 < S1x256.numel
  shapeCasts_S1x256_S1x256 : S1x256.ShapeCasts S1x256
  transposes_S1x256_p1_0_S256x1 : S1x256.Transposes [1, 0] S256x1
  iota_S256x1024_d0_w32 : S256x1024.Iotas .tc 32 [0]
  iota_S256x1024_d1_w32 : S256x1024.Iotas .tc 32 [1]
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  dot_S256x128_S1024x128_S256x1024_1_1_0_0_n_n_wf : DotDims.WF S256x128 S1024x128 S256x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  k0_off2_inb : ∀ i : grid0.Coords, ∀ a, (k0_off2 i) a + S1x256.size a ≤ S1x8192.size a
  k0_t1_ok : k0_t1_loop.OK
  k0_mult2_dvd : ∀ k0_t1 : Fin k0_t1_loop.trips, 1024 ∣ (k0_mult2 k0_t1).toNat
  k0_off3_inb : ∀ k0_t1 : Fin k0_t1_loop.trips, ∀ a, (k0_off3 k0_t1) a + S1024x128.size a ≤ S8192x128.size a
  k0_off4_inb : ∀ k0_t1 : Fin k0_t1_loop.trips, ∀ a, (k0_off4 k0_t1) a + S1x1024.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_v5) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S8192x8192, .i1⟩
  | .hbm, ⟨24, _⟩ => ⟨S8192x8192, .i1⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_call2_cst : Ref sig .tc := ⟨.hbm, 34, rfl⟩
abbrev main_call2_v0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_call3_v0 : Ref sig .tc := ⟨.hbm, 45, rfl⟩
abbrev main_call3_v1 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The circle loss as one function of the feature matrix and the labels, on the extended reals.

  Rows of the 8192 x 128 matrix `x` are divided by their Euclidean norm; `sim x i j` is the inner
  product of the normalised rows `i` and `j`.  For a pair with the same label (and `i ≠ j`) the
  positive term is `exp (-32 · relu (1.25 - s) · (s - 0.75))`; for a pair with different labels the
  negative term is `exp (32 · relu (s + 0.25) · (s - 0.25))`.  Row `i` contributes
  `log (1 + (Σ_j positive) · (Σ_j negative))`, and the loss is the mean of the rows' contributions.

  `expoP'` is the positive exponent with the `relu` left out; it agrees with `expoP` wherever
  `s ≤ 1.25`, in particular for every inner product of two normalised rows (Cauchy–Schwarz).
-/
import Idealize.ShloMosaic.PureOps.Ideal
import Idealize.ShloMosaic.PureOps.Ideal.Laws
import Idealize.ShloMosaic.Lib.ValueIdx

noncomputable section

namespace Cert.Circle

open Idealize.ShloMosaic Idealize.ShloMosaic.ValueIdx

/-- The feature matrix and the label vector, as arrays of extended reals and of 32-bit words. -/
abbrev Feats := (⟨2, ![8192, 128]⟩ : Shape).Idx → EReal
abbrev Labels := (⟨1, ![8192]⟩ : Shape).Idx → BitVec 32

/-- The constants of the loss, as the float words both programs carry:
    1.25, 0.25, 0.75, 32, -32 and the row count 8192. -/
def c125 : EReal := Ideal.ofBits .f32 0x3FA00000#32
def c025 : EReal := Ideal.ofBits .f32 0x3E800000#32
def c075 : EReal := Ideal.ofBits .f32 0x3F400000#32
def c32 : EReal := Ideal.ofBits .f32 0x42000000#32
def cm32 : EReal := Ideal.ofBits .f32 0xC2000000#32
def c8192 : EReal := Ideal.ofBits .f32 0x46000000#32

/-- The squared Euclidean norm of row `i`. -/
def nsq (x : Feats) (i : Fin 8192) : EReal := ∑ k : Fin 128, x (ix2 i k) * x (ix2 i k)

/-- Entry `k` of row `i` divided by the row's norm. -/
def unit (x : Feats) (i : Fin 8192) (k : Fin 128) : EReal :=
  Ideal.div (x (ix2 i k)) (Ideal.sqrt (nsq x i))

/-- The cosine similarity of rows `i` and `j`. -/
def sim (x : Feats) (i j : Fin 8192) : EReal := ∑ k : Fin 128, unit x i k * unit x j k

/-- The exponent of a positive pair, with and without the `relu` on `1.25 - s`. -/
def expoP (s : EReal) : EReal := (cm32 * max (c125 - s) 0) * (s - c075)
def expoP' (s : EReal) : EReal := (cm32 * (c125 - s)) * (s - c075)
/-- The exponent of a negative pair. -/
def expoN (s : EReal) : EReal := (c32 * max (s + c025) 0) * (s - c025)

/-- Rows `i` and `j` carry the same label. -/
abbrev same (lab : Labels) (i j : Fin 8192) : Prop := lab (ix1 i) = lab (ix1 j)

/-- The sum over the positive pairs of row `i` (same label, `j ≠ i`), for an exponent `e`. -/
def lossPWith (e : EReal → EReal) (x : Feats) (lab : Labels) (i : Fin 8192) : EReal :=
  ∑ j : Fin 8192, if same lab i j ∧ i ≠ j then Ideal.exp (e (sim x i j)) else 0

/-- The sum over the negative pairs of row `i` (different labels). -/
def lossN (x : Feats) (lab : Labels) (i : Fin 8192) : EReal :=
  ∑ j : Fin 8192, if same lab i j then 0 else Ideal.exp (expoN (sim x i j))

/-- Row `i`'s contribution, and the mean over the rows. -/
def rowLossWith (e : EReal → EReal) (x : Feats) (lab : Labels) (i : Fin 8192) : EReal :=
  Ideal.log1p (lossPWith e x lab i * lossN x lab i)

def lossWith (e : EReal → EReal) (x : Feats) (lab : Labels) : EReal :=
  Ideal.div (∑ i : Fin 8192, rowLossWith e x lab i) c8192

/-- The loss as the reference states it, and as the kernel computes it. -/
abbrev loss (x : Feats) (lab : Labels) : EReal := lossWith expoP x lab
abbrev loss' (x : Feats) (lab : Labels) : EReal := lossWith expoP' x lab

/-- If the two exponents agree at every similarity of the matrix, the two losses agree. -/
theorem loss'_eq_loss (x : Feats) (lab : Labels)
    (h : ∀ i j : Fin 8192, expoP' (sim x i j) = expoP (sim x i j)) : loss' x lab = loss x lab := by
  unfold loss' loss lossWith rowLossWith lossPWith
  simp only [h]

end Cert.Circle

end
-- ==== Proof.SimBound.lean ====
/-
  Every cosine similarity of the matrix is at most 1, so the `relu` on `1.25 - s` in the positive
  exponent never acts.

  When every entry of `x` is a real number and every row has a positive sum of squares, the whole
  computation of `sim x i j` stays inside the reals: the squared norm of row `i` is the real
  `Σ_k r_ik²`, its square root is a positive real `‖r_i‖`, division by it is multiplication by its
  reciprocal, and `sim x i j` is the real `Σ_k (r_ik / ‖r_i‖) (r_jk / ‖r_j‖) = ⟨r_i, r_j⟩ / (‖r_i‖ ‖r_j‖)`.
  By the Cauchy–Schwarz inequality `⟨r_i, r_j⟩ ≤ ‖r_i‖ ‖r_j‖`, so that real is at most `1 < 1.25`,
  the difference `1.25 - s` is positive and `max (1.25 - s) 0 = 1.25 - s`.
-/
import proofs.«160342_j38628935860375_2_alg».proof.Proof.Spec
import Mathlib.Analysis.Real.Sqrt

noncomputable section

namespace Cert.Circle

open Idealize.ShloMosaic Idealize.ShloMosaic.ValueIdx
open scoped BigOperators

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A matrix all of whose entries are finite is the image of a real matrix. -/
theorem exists_real (x : Feats) (hfin : ∀ idx, ∃ r : ℝ, x idx = (r : EReal)) :
    ∃ r : Fin 8192 → Fin 128 → ℝ, ∀ i k, x (ix2 i k) = (r i k : EReal) :=
  ⟨fun i k => (hfin (ix2 i k)).choose, fun i k => (hfin (ix2 i k)).choose_spec⟩

section Real

variable (x : Feats) (r : Fin 8192 → Fin 128 → ℝ) (hr : ∀ i k, x (ix2 i k) = (r i k : EReal))
include hr

/-- The squared norm of a row of reals is the real sum of squares. -/
theorem nsq_eq_coe (i : Fin 8192) : nsq x i = ((∑ k : Fin 128, r i k * r i k : ℝ) : EReal) := by
  unfold nsq
  rw [coe_finset_sum]
  refine Finset.sum_congr rfl fun k _ => ?_
  rw [hr, EReal.coe_mul]

/-- Positivity of the squared norm passes to the real sum of squares. -/
theorem real_nsq_pos (i : Fin 8192) (hpos : 0 < nsq x i) : 0 < ∑ k : Fin 128, r i k * r i k := by
  rw [nsq_eq_coe x r hr i] at hpos
  exact_mod_cast hpos

/-- An entry of a normalised row is the real quotient by the row's Euclidean norm. -/
theorem unit_eq_coe (i : Fin 8192) (hpos : 0 < ∑ k : Fin 128, r i k * r i k) (k : Fin 128) :
    unit x i k = ((r i k / Real.sqrt (∑ k : Fin 128, r i k * r i k) : ℝ) : EReal) := by
  unfold unit
  rw [nsq_eq_coe x r hr i, Ideal.sqrt_coe, if_neg (not_lt.2 hpos.le),
    Ideal.div_coe (Real.sqrt_pos.2 hpos).ne', hr, ← EReal.coe_mul, mul_one_div]

/-- The similarity of two rows with positive norms is a real number: the sum of the products of the
    normalised entries. -/
theorem sim_eq_coe (i j : Fin 8192) (hi : 0 < ∑ k : Fin 128, r i k * r i k)
    (hj : 0 < ∑ k : Fin 128, r j k * r j k) :
    sim x i j = ((∑ k : Fin 128, (r i k / Real.sqrt (∑ k : Fin 128, r i k * r i k)) *
      (r j k / Real.sqrt (∑ k : Fin 128, r j k * r j k)) : ℝ) : EReal) := by
  unfold sim
  rw [coe_finset_sum]
  refine Finset.sum_congr rfl fun k _ => ?_
  rw [unit_eq_coe x r hr i hi, unit_eq_coe x r hr j hj, EReal.coe_mul]

end Real

/-- Cauchy–Schwarz for two real vectors with positive norms: the inner product of the normalised
    vectors is at most `1`. -/
theorem real_cos_le_one {n : ℕ} (a b : Fin n → ℝ) (ha : 0 < ∑ k, a k * a k) (hb : 0 < ∑ k, b k * b k) :
    ∑ k, (a k / Real.sqrt (∑ k, a k * a k)) * (b k / Real.sqrt (∑ k, b k * b k)) ≤ 1 := by
  have hA : 0 < Real.sqrt (∑ k, a k * a k) := Real.sqrt_pos.2 ha
  have hB : 0 < Real.sqrt (∑ k, b k * b k) := Real.sqrt_pos.2 hb
  have hcs : ∑ k, a k * b k ≤ Real.sqrt (∑ k, a k * a k) * Real.sqrt (∑ k, b k * b k) := by
    have h := Real.sum_mul_le_sqrt_mul_sqrt Finset.univ a b
    simpa only [sq] using h
  have hsum : ∑ k, (a k / Real.sqrt (∑ k, a k * a k)) * (b k / Real.sqrt (∑ k, b k * b k))
      = (∑ k, a k * b k) / (Real.sqrt (∑ k, a k * a k) * Real.sqrt (∑ k, b k * b k)) := by
    rw [Finset.sum_div]
    refine Finset.sum_congr rfl fun k _ => ?_
    rw [div_mul_div_comm]
  rw [hsum, div_le_one (mul_pos hA hB)]
  exact hcs

/-- The word `0x3FA00000` denotes the real `1.25`. -/
theorem c125_eq : c125 = ((1.25 : ℝ) : EReal) := by
  simp [c125, Ideal.ofBits, Ideal.ieee, -EReal.coe_mul]; norm_num

/-- Wherever `s` is a real at most `1.25`, the `relu` on `1.25 - s` is the identity and the two
    positive exponents agree. -/
theorem expoP'_eq_expoP_of_le (s : ℝ) (hs : s ≤ 1.25) :
    expoP' (s : EReal) = expoP (s : EReal) := by
  unfold expoP expoP'
  have h : (0 : EReal) ≤ c125 - (s : EReal) := by
    rw [c125_eq, ← EReal.coe_sub]
    exact_mod_cast sub_nonneg.2 hs
  rw [max_eq_left h]

/-- Every similarity of a finite matrix with positive row norms is a real number at most `1`. -/
theorem sim_le_one (x : Feats) (hfin : ∀ idx, ∃ r : ℝ, x idx = (r : EReal))
    (hpos : ∀ i : Fin 8192, 0 < nsq x i) (i j : Fin 8192) :
    ∃ s : ℝ, sim x i j = (s : EReal) ∧ s ≤ 1 := by
  obtain ⟨r, hr⟩ := exists_real x hfin
  have hi := real_nsq_pos x r hr i (hpos i)
  have hj := real_nsq_pos x r hr j (hpos j)
  exact ⟨_, sim_eq_coe x r hr i j hi hj, real_cos_le_one (r i) (r j) hi hj⟩

/-- On a finite matrix with positive row norms the positive exponent without the `relu` is the
    positive exponent, at every pair of rows. -/
theorem expoP'_eq_expoP_sim (x : Feats) (hfin : ∀ idx, ∃ r : ℝ, x idx = (r : EReal))
    (hpos : ∀ i : Fin 8192, 0 < nsq x i) (i j : Fin 8192) :
    expoP' (sim x i j) = expoP (sim x i j) := by
  obtain ⟨s, hs, hle⟩ := sim_le_one x hfin hpos i j
  rw [hs]
  exact expoP'_eq_expoP_of_le s (hle.trans (by norm_num))

end Cert.Circle

end
-- ==== Proof.PreDecode.lean ====
/-
  What the precondition says of the feature matrix.

  The precondition is the conjunction of two statements about every element: the absolute value of
  every entry is below `+∞`, and every row's sum of squares (a sum over the second axis, started at
  `0`) is above `0`.  On the extended reals `max a (-a) < ⊤` excludes both `a = ⊤` and `a = ⊥`, so
  every entry is a real number; and the sum over the second axis at row `i` is `0 + Σ_k x_ik · x_ik`,
  the squared norm `nsq x i`.
-/
import proofs.«160342_j38628935860375_2_alg».proof.Proof.Spec
import proofs.«160342_j38628935860375_2_alg».proof.Pre_finite_inputs
import proofs.«160342_j38628935860375_2_alg».proof.Proof.Gen.Pre_finite_inputs
import Idealize.ShloMosaic.Lib.ReduceAll
import Idealize.ShloMosaic.PureOps.Ideal.Laws

noncomputable section

namespace Cert.Circle

open Idealize.ShloMosaic Idealize.ShloMosaic.ValueIdx
open Cert.Pre_finite_inputs
open scoped BigOperators

/-- The shape of rank zero has one index. -/
instance subsingleton_S_ : Subsingleton S_.Idx := ⟨fun _ _ => funext fun d => d.elim0⟩

/-- The word `0x7F800000` denotes `+∞`. -/
theorem ofBits_inf : Ideal.ofBits .f32 0x7F800000#32 = ⊤ := by
  simp [Ideal.ofBits, Ideal.ieee]

/-- A comparison "less than" answers `1` exactly when the strict inequality holds. -/
theorem cmp_olt_eq_one (a b : EReal) : Ideal.cmp .olt a b = 1#1 ↔ a < b := by
  unfold Ideal.cmp
  by_cases h : a < b <;> simp [h]

/-- A comparison "greater than" answers `1` exactly when the strict inequality holds. -/
theorem cmp_ogt_eq_one (a b : EReal) : Ideal.cmp .ogt a b = 1#1 ↔ b < a := by
  unfold Ideal.cmp
  by_cases h : b < a <;> simp [h]

/-- An extended real whose absolute value is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Inserting the coordinate `k` on the second axis of the row index `i` gives the matrix index `(i, k)`. -/
theorem lift_ix1 (hR : S8192x128.Reduces [1] S8192) (i : Fin 8192) (k : Fin 128) :
    hR.lift (ix1 i) k = ix2 i k := by
  funext a
  apply Fin.ext
  match a with
  | ⟨0, _⟩ => rfl
  | ⟨1, _⟩ => rfl

/-- The precondition gives: every entry of the matrix is a real number, and every row has a positive
    squared norm. -/
theorem of_pre [Cert.Pre_finite_inputs.Facts] (x : FVec Ideal Cert.Pre_finite_inputs.S8192x128 .f32)
    (lab : IVec Cert.Pre_finite_inputs.S8192 32)
    (h : Cert.Pre_finite_inputs.fn (F := Ideal) x lab = fun _ => 1#1) :
    (∀ idx, ∃ r : ℝ, x idx = (r : EReal)) ∧ (∀ i : Fin 8192, 0 < Cert.Circle.nsq x i) := by
  have e := congrFun h ix0
  dsimp only [Cert.Pre_finite_inputs.fn, andi] at e
  obtain ⟨e1, e2⟩ := IntOp.andi_eq_one.1 e
  constructor
  · intro idx
    have h1 : Ideal.cmp .olt (max (x idx) (-(x idx))) (Ideal.ofBits .f32 0x7F800000#32) = 1#1 :=
      Host.reduce_andi_all _ _ _ _ _ e1 idx
    rw [cmp_olt_eq_one, ofBits_inf] at h1
    exact real_of_abs_lt_top _ h1
  · intro i
    have hR : S8192x128.Reduces [1] S8192 := by decide
    have h2 : Ideal.cmp .ogt
        (Ideal.hostReduceAdd Facts.reducesTo_S8192x128_S8192_d1 (fun j => x j * x j)
          (Ideal.ofBits .f32 0x00000000#32) (ix1 i))
        (Ideal.ofBits .f32 0x00000000#32) = 1#1 :=
      Host.reduce_andi_all _ _ _ _ _ e2 (ix1 i)
    rw [cmp_ogt_eq_one, Ideal.hostReduceAdd_single Facts.reducesTo_S8192x128_S8192_d1 hR,
      Ideal.ofBits_zero_f32, zero_add] at h2
    refine lt_of_lt_of_eq h2 ?_
    unfold nsq
    refine Finset.sum_congr rfl fun k _ => ?_
    show x (hR.lift (ix1 i) k) * x (hR.lift (ix1 i) k) = _
    rw [lift_ix1 hR i k]

end Cert.Circle

end
-- ==== Proof.RefSide.lean ====
/-
  The reference program computes the circle loss.

  Read one host operation at a time, the reference's scalar result is the specification's `loss` of its
  two arguments: row `i`'s squared norm is the sum of the squares of its entries; each entry is divided by
  the square root of that sum; the similarity of rows `i` and `j` is the inner product of the two
  normalised rows (the transposed operand of the product read back through the transposition); the two
  exponents are the specification's `expoP` and `expoN` of that similarity, their constants the same float
  words on both sides. The masks are one-bit words: the label mask at `(i, j)` is set exactly when the two
  labels are equal, and the diagonal mask exactly when `i = j` (the two coordinates, below 8192, are
  compared as 32-bit words, so nothing wraps). A masked-out entry is filled with the word of `-∞`, whose
  exponential is `0`: that is the specification's `if … then exp … else 0`. Every float sum starts from
  the zero word, which denotes `0`. Row `i` then contributes `log1p` of the product of its two sums, and
  the result is the sum of the rows' contributions divided by the word of 8192.
-/
import proofs.«160342_j38628935860375_2_alg».proof.Proof.Gen.ReferenceIdeal.Run
import proofs.«160342_j38628935860375_2_alg».proof.Proof.Gen.ReferenceIdeal.Read
import proofs.«160342_j38628935860375_2_alg».proof.Proof.Spec
import Idealize.ShloMosaic.Lib.Affine

noncomputable section

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Cert.Circle

variable (x : FVec Ideal S8192x128 .f32) (lab : IVec S8192 32)

/-- The squared norm of row `i`, as the reference sums it. -/
theorem nsq_eq (i : Fin 8192) : val_main_call0_v1 (F := Ideal) x (ix1 i) = nsq x i := by
  have e : ∀ k : Fin 128, idx_main_call0_v1 (ix1 i) k = ix2 i k := fun k =>
    funext fun a => Fin.ext (by match a with | ⟨0, _⟩ => rfl | ⟨1, _⟩ => rfl)
  rw [val_main_call0_v1_apply, val_main_call0_cst_apply]
  simp only [e, val_main_call0_v0_apply, Ideal.ofBits_def, Ideal.mulf_def, Ideal.ofBits_zero_f32, zero_add]
  rfl

/-- Entry `k` of the normalised row `i`. -/
theorem unit_eq (i : Fin 8192) (k : Fin 128) : val_main_v2 (F := Ideal) x (ix2 i k) = unit x i k := by
  have e : idx_main_call0_v2 (idx_main_v1 (ix2 i k)) = ix1 i :=
    funext fun a => Fin.ext (by match a with | ⟨0, _⟩ => rfl)
  rw [val_main_v2_apply, val_main_v1_apply, val_main_v0_apply, val_main_call0_v2_apply, e, nsq_eq]
  simp only [Ideal.hostDivf_def, Ideal.hostUnary_sqrt_def]
  rfl

/-- The inner product of the normalised rows `i` and `j`. -/
theorem sim_eq (i j : Fin 8192) : val_main_v4 (F := Ideal) x (ix2 i j) = sim x i j := by
  have el : ∀ k : Fin 128, lidx_main_v4 (ix2 i j) k = ix2 i k := fun k =>
    funext fun a => Fin.ext (by match a with | ⟨0, _⟩ => rfl | ⟨1, _⟩ => rfl)
  have er : ∀ k : Fin 128, idx_main_v3 (ridx_main_v4 (ix2 i j) k) = ix2 j k := fun k =>
    funext fun a => Fin.ext (by match a with | ⟨0, _⟩ => rfl | ⟨1, _⟩ => rfl)
  rw [val_main_v4_apply]
  simp only [val_main_v3_apply, el, er, unit_eq]
  rfl

/-- The exponent of a positive pair. -/
theorem expoP_eq (i j : Fin 8192) : val_main_v28 (F := Ideal) x (ix2 i j) = expoP (sim x i j) := by
  rw [val_main_v28_apply, val_main_v25_apply, val_main_v24_apply, val_main_cst_1_apply, val_main_v20_apply,
    val_main_v19_apply, val_main_v18_apply, val_main_cst_apply, val_main_call1_v0_apply, val_main_call1_cst_apply,
    val_main_v27_apply, val_main_v26_apply, val_main_cst_2_apply, sim_eq]
  simp only [Ideal.ofBits_def, Ideal.mulf_def, Ideal.subf_def, Ideal.maximumf_def, Ideal.ofBits_zero_f32]
  rfl

/-- The exponent of a negative pair. -/
theorem expoN_eq (i j : Fin 8192) : val_main_v34 (F := Ideal) x (ix2 i j) = expoN (sim x i j) := by
  rw [val_main_v34_apply, val_main_v31_apply, val_main_v30_apply, val_main_cst_4_apply, val_main_v23_apply,
    val_main_v22_apply, val_main_v21_apply, val_main_cst_0_apply, val_main_call2_v0_apply, val_main_call2_cst_apply,
    val_main_v33_apply, val_main_v32_apply, val_main_cst_5_apply, sim_eq]
  simp only [Ideal.ofBits_def, Ideal.mulf_def, Ideal.subf_def, Ideal.addf_def, Ideal.maximumf_def, Ideal.ofBits_zero_f32]
  rfl

/-- The word the masked-out entries are filled with denotes `-∞`. -/
theorem ofBits_neg_inf : Ideal.ofBits .f32 0xFF800000#32 = ⊥ := by simp [Ideal.ofBits, Ideal.ieee]

theorem fillP_eq (p : S8192x8192.Idx) : val_main_call3_v1 (F := Ideal) p = ⊥ := by
  rw [val_main_call3_v1_apply, val_main_call3_v0_apply, val_main_cst_3_apply, Ideal.ofBits_def, ofBits_neg_inf]

theorem fillN_eq (p : S8192x8192.Idx) : val_main_call4_v1 (F := Ideal) p = ⊥ := by
  rw [val_main_call4_v1_apply, val_main_call4_v0_apply, val_main_cst_6_apply, Ideal.ofBits_def, ofBits_neg_inf]

/-- The label mask at `(i, j)` is set exactly when rows `i` and `j` carry the same label. -/
theorem same_iff (i j : Fin 8192) : val_main_v9 (F := Ideal) lab (ix2 i j) = 1#1 ↔ same lab i j := by
  have e1 : idx_main_v5 (idx_main_v7 (ix2 i j)) = ix1 i :=
    funext fun a => Fin.ext (by match a with | ⟨0, _⟩ => rfl)
  have e2 : idx_main_v6 (idx_main_v8 (ix2 i j)) = ix1 j :=
    funext fun a => Fin.ext (by match a with | ⟨0, _⟩ => rfl)
  rw [val_main_v9_apply, val_main_v7_apply, val_main_v5_apply, val_main_v8_apply, val_main_v6_apply, e1, e2,
    IntOp.cmpi_eq]

/-- The diagonal mask at `(i, j)` is set exactly when `i = j`: both coordinates are below `2 ^ 32`. -/
theorem eye_iff (i j : Fin 8192) : val_main_v14 (F := Ideal) (ix2 i j) = 1#1 ↔ i = j := by
  rw [val_main_v14_apply, val_main_v13_apply, val_main_v10_apply, val_main_v12_apply, val_main_c_apply,
    val_main_v11_apply, IntOp.cmpi_eq]
  show IntOp.addi (BitVec.ofNat 32 i.val) 0#32 = BitVec.ofNat 32 j.val ↔ i = j
  unfold IntOp.addi
  rw [BitVec.add_zero]
  constructor
  · intro h
    have h' := congrArg BitVec.toNat h
    simp only [BitVec.toNat_ofNat] at h'
    have hi := i.isLt
    have hj := j.isLt
    exact Fin.ext (by omega)
  · intro h; rw [h]

/-- The positive term at `(i, j)`: `exp` of the exponent on a positive pair, and `exp (-∞) = 0` elsewhere. -/
theorem pos_eq (i j : Fin 8192) : val_main_v36 (F := Ideal) x lab (ix2 i j)
    = if same lab i j ∧ i ≠ j then Ideal.exp (expoP (sim x i j)) else 0 := by
  have hm : val_main_v16 (F := Ideal) lab (ix2 i j) = 1#1 ↔ same lab i j ∧ i ≠ j := by
    rw [val_main_v16_apply, IntOp.andi_eq_one, val_main_v15_apply, IntOp.not_eq_one, same_iff, eye_iff]
  rw [val_main_v36_apply, val_main_v29_apply, expoP_eq, fillP_eq, Ideal.hostUnary_exp_def]
  by_cases h : same lab i j ∧ i ≠ j
  · rw [if_pos h, hm.mpr h, select_one]
  · rw [if_neg h, eq_zero_of_ne_one (fun hc => h (hm.mp hc)), select_zero, Ideal.exp_bot]

/-- The negative term at `(i, j)`. -/
theorem neg_eq (i j : Fin 8192) : val_main_v38 (F := Ideal) x lab (ix2 i j)
    = if same lab i j then 0 else Ideal.exp (expoN (sim x i j)) := by
  have hm : val_main_v17 (F := Ideal) lab (ix2 i j) = 1#1 ↔ ¬ same lab i j := by
    rw [val_main_v17_apply, IntOp.not_eq_one, same_iff]
  rw [val_main_v38_apply, val_main_v35_apply, expoN_eq, fillN_eq, Ideal.hostUnary_exp_def]
  by_cases h : same lab i j
  · rw [if_pos h, eq_zero_of_ne_one (fun hc => hm.mp hc h), select_zero, Ideal.exp_bot]
  · rw [if_neg h, hm.mpr h, select_one]

/-- Row `i`'s sum over its positive pairs. -/
theorem lossP_eq (i : Fin 8192) : val_main_v37 (F := Ideal) x lab (ix1 i) = lossPWith expoP x lab i := by
  have e : ∀ k : Fin 8192, idx_main_v37 (ix1 i) k = ix2 i k := fun k =>
    funext fun a => Fin.ext (by match a with | ⟨0, _⟩ => rfl | ⟨1, _⟩ => rfl)
  rw [val_main_v37_apply, val_main_cst_7_apply, Ideal.ofBits_def, Ideal.ofBits_zero_f32, zero_add]
  simp only [e, pos_eq]
  rfl

/-- Row `i`'s sum over its negative pairs. -/
theorem lossN_eq (i : Fin 8192) : val_main_v39 (F := Ideal) x lab (ix1 i) = lossN x lab i := by
  have e : ∀ k : Fin 8192, idx_main_v39 (ix1 i) k = ix2 i k := fun k =>
    funext fun a => Fin.ext (by match a with | ⟨0, _⟩ => rfl | ⟨1, _⟩ => rfl)
  rw [val_main_v39_apply, val_main_cst_8_apply, Ideal.ofBits_def, Ideal.ofBits_zero_f32, zero_add]
  simp only [e, neg_eq]
  rfl

/-- Row `i`'s contribution to the loss. -/
theorem row_eq (i : Fin 8192) : val_main_v41 (F := Ideal) x lab (ix1 i) = rowLossWith expoP x lab i := by
  rw [val_main_v41_apply, val_main_v40_apply, lossP_eq, lossN_eq, Ideal.hostUnary_log1p_def, Ideal.mulf_def]
  rfl

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The reference's result is the loss. -/
theorem val_eq (p : S_.Idx) : val_main_v43 (F := Ideal) x lab p = loss x lab := by
  rw [val_main_v43_apply, val_main_v42_apply, val_main_cst_9_apply, val_main_cst_10_apply, Ideal.hostDivf_def,
    Ideal.ofBits_def, Ideal.ofBits_def, Ideal.ofBits_zero_f32, zero_add, sum_idx1]
  simp only [row_eq]
  rfl

/-- The reference program's result, as the run states it, is the loss of its two arguments. -/
theorem result_eq (m : (ℓ : Loc nD τ sig) → Buf (Elt Ideal) ℓ) (c : Dev nD) :
    Cert.ReferenceIdeal.Value.res_out0 (F := Ideal) m c
      = fun _ => Cert.Circle.loss (m ((c.tc : Thread nD τ).loc main_arg0)) (m ((c.tc : Thread nD τ).loc main_arg1)) := by
  funext p
  exact (congrFun (val_main_v43_eq (F := Ideal) m c) p).trans (val_eq _ _ p)

end Cert.ReferenceIdeal.RefValue

end
-- ==== Proof.KernelTrip.lean ====
/-
  What one grid point of the kernel leaves in its output block, as a pure function of the two
  arrays it reads.

  At grid point `i` the body takes the 256 rows `q` of the (normalised) feature matrix that start at
  row `256·i`, and the labels of those rows.  It then walks the matrix in eight chunks of 1024 rows:
  chunk `k` contributes, to each of the 256 rows, a partial sum over the chunk's 1024 columns of the
  positive terms and one of the negative terms, and the two running sums are carried from chunk to
  chunk.  After the eighth chunk the block stored is `log1p (positive · negative)`.

  `chunk` is one chunk's step on the carried pair, `carried n` the pair before chunk `n`
  (a recursion on `n`, never unrolled), and `block_eq` says the output block after the body is
  `log1p` of the product of the pair after all eight chunks.
-/
import proofs.«160342_j38628935860375_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The offset of the block of rows a grid point owns: `256 · i`, as the body computes it. -/
abbrev rowOff (i : grid0.Coords) : BitVec 32 := Scalar.muli (BitVec.ofNat 32 (i 0).val) 256#32

/-- The 256 rows of the matrix and the 256 labels a grid point owns. -/
abbrev ownRows (i : grid0.Coords) (x0 : Vec F S8192x128 .f32) : FVec F S256x128 .f32 :=
  k0_pay1 (View.ld x0 (Rect.unit (s := S8192x128) (k0_off1 i) S256x128.size (k0_off1_inb i)))
abbrev ownLabels (i : grid0.Coords) (x1 : Vec F S1x8192 .i32) : IVec S256x1 32 :=
  k0_pay2 (F := F) (View.ld x1 (Rect.unit (s := S1x8192) (k0_off2 i) S1x256.size (k0_off2_inb i)))

/-- The 1024 rows and labels of chunk `k`. -/
abbrev chunkRows (k : Fin k0_t1_loop.trips) (x0 : Vec F S8192x128 .f32) : Vec F S1024x128 .f32 :=
  View.ld x0 (Rect.unit (s := S8192x128) (k0_off3 k) S1024x128.size (k0_off3_inb k))
abbrev chunkLabels (k : Fin k0_t1_loop.trips) (x1 : Vec F S1x8192 .i32) : Vec F S1x1024 .i32 :=
  View.ld x1 (Rect.unit (s := S1x8192) (k0_off4 k) S1x1024.size (k0_off4_inb k))

/-- One chunk's step on the carried pair of partial sums. -/
def chunk (i : grid0.Coords) (x0 : Vec F S8192x128 .f32) (x1 : Vec F S1x8192 .i32) (k : Fin k0_t1_loop.trips)
    (acc : FVec F S256x1 .f32 × FVec F S256x1 .f32) : FVec F S256x1 .f32 × FVec F S256x1 .f32 :=
  (k0_pay10 (rowOff i) (ownRows i x0) (ownLabels (F := F) i x1) k0_pay3 0#32 1#32 k acc.1 (chunkRows k x0) (chunkLabels k x1),
   k0_pay6 acc.2 (k0_pay11 (ownRows i x0) (ownLabels (F := F) i x1) (chunkRows k x0) (chunkLabels k x1)))

/-- The carried pair before chunk `n`: zero, then one step per chunk. -/
def carried (i : grid0.Coords) (x0 : Vec F S8192x128 .f32) (x1 : Vec F S1x8192 .i32) :
    ℕ → FVec F S256x1 .f32 × FVec F S256x1 .f32
  | 0 => (k0_pay4, k0_pay5)
  | n + 1 => if h : n < k0_t1_loop.trips then chunk i x0 x1 ⟨n, h⟩ (carried i x0 x1 n) else carried i x0 x1 n

/-- One trip of the body's loop, as the run found it, is `chunk`. -/
theorem trip_eq (c : Dev nD) (i : grid0.Coords) (a1 : Memref sig .tc .vmem S8192x128 .f32) (h1 : a1.IsWhole)
    (a2 : Memref sig .tc .vmem S1x8192 .i32) (h2 : a2.IsWhole) (a3 : Memref sig .tc .vmem S256x1 .f32) (h3 : a3.IsWhole)
    (x0 : Vec F S8192x128 .f32) (x1 : Vec F S1x8192 .i32) (k : Fin k0_t1_loop.trips)
    (acc : FVec F S256x1 .f32 × FVec F S256x1 .f32) :
    tripR_k0_t1 (F := F) Variants.none c none i a1 h1 a2 h2 a3 h3 (rowOff i)
        (View.readAt (Elt F) a1.view (Rect.unit (s := S8192x128) (k0_off1 i) S256x128.size (k0_off1_inb i)).toLoadRect (h1.unread x0))
        (View.readAt (Elt F) a2.view (Rect.unit (s := S1x8192) (k0_off2 i) S1x256.size (k0_off2_inb i)).toLoadRect (h2.unread x1))
        (h1.unread x0) (h2.unread x1) k acc
      = chunk i x0 x1 k acc := by
  unfold tripR_k0_t1 trip_k0_t1
  dsimp only
  sl_unfold_words
  simp only [View.readAt_eq_ld, h1.read_unread, h2.read_unread]
  rfl

/-- The loop's carried value before trip `n`, as the run states it, is `carried n`. -/
theorem st_eq (c : Dev nD) (i : grid0.Coords) (a1 : Memref sig .tc .vmem S8192x128 .f32) (h1 : a1.IsWhole)
    (a2 : Memref sig .tc .vmem S1x8192 .i32) (h2 : a2.IsWhole) (a3 : Memref sig .tc .vmem S256x1 .f32) (h3 : a3.IsWhole)
    (x0 : Vec F S8192x128 .f32) (x1 : Vec F S1x8192 .i32) : ∀ n : ℕ,
    st_k0_t1 (F := F) Variants.none c none i a1 h1 a2 h2 a3 h3 (rowOff i)
        (View.readAt (Elt F) a1.view (Rect.unit (s := S8192x128) (k0_off1 i) S256x128.size (k0_off1_inb i)).toLoadRect (h1.unread x0))
        (View.readAt (Elt F) a2.view (Rect.unit (s := S1x8192) (k0_off2 i) S1x256.size (k0_off2_inb i)).toLoadRect (h2.unread x1))
        (h1.unread x0) (h2.unread x1) (k0_pay4, k0_pay5) n
      = carried i x0 x1 n
  | 0 => rfl
  | n + 1 => by
    rw [st_k0_t1.eq_2, carried]
    unfold st_k0_t1Step
    by_cases h : n < k0_t1_loop.trips
    · rw [dif_pos h, dif_pos h, st_eq c i a1 h1 a2 h2 a3 h3 x0 x1 n, trip_eq]
    · rw [dif_neg h, dif_neg h, st_eq c i a1 h1 a2 h2 a3 h3 x0 x1 n]

/-- What the body leaves in the output block: `log1p` of the product of the two sums after the eighth chunk. -/
theorem block_eq (c : Dev nD) (i : grid0.Coords) (a1 : Memref sig .tc .vmem S8192x128 .f32) (h1 : a1.IsWhole)
    (a2 : Memref sig .tc .vmem S1x8192 .i32) (h2 : a2.IsWhole) (a3 : Memref sig .tc .vmem S256x1 .f32) (h3 : a3.IsWhole)
    (x0 : Vec F S8192x128 .f32) (x1 : Vec F S1x8192 .i32) :
    out0_A_2 c i a1 h1 a2 h2 a3 h3 x0 x1 = k0_pay7 (carried i x0 x1 8).1 (carried i x0 x1 8).2 := by
  unfold out0_A_2
  rw [View.read_writes_eq_canon _ _ _ (cover0_A_2 c i a1 h1 a2 h2 a3 h3 x0 x1)]
  unfold kernelRun0_A
  dsimp only
  sl_unfold_words
  rw [View.canon_unit_zero hz]
  have h8 : Scf.trips (0#32) (Scalar.addi 0#32 8#32) 1#32 = 8 := by decide
  rw [h8]
  exact congrArg₂ k0_pay7 (congrArg Prod.fst (st_eq c i a1 h1 a2 h2 a3 h3 x0 x1 8)) (congrArg Prod.snd (st_eq c i a1 h1 a2 h2 a3 h3 x0 x1 8))

end Cert.KernelIdeal.KValue

end
-- ==== Proof.KernelChunk.lean ====
/-
  One chunk of the kernel's loop, read entry by entry on the extended reals.

  For a block of 256 rows `q` with labels `rl` and a chunk of 1024 rows `kk` with labels `cl`:
  the matrix product `q · kkᵀ` at `(r, b)` is the inner product `Σ_d q[r,d] · kk[b,d]`; the
  "same label" mask at `(r, b)` compares `rl[r]` with `cl[b]`; the "off the diagonal" mask compares
  the local difference `r - b` with the difference of the two blocks' offsets.  The exponentiated
  term of a pair is `exp` of the positive exponent where the labels agree and of the negative one
  where they differ.  One chunk adds, to the positive running sum of row `r`, the terms of the pairs
  with equal labels off the diagonal, and to the negative running sum the terms of the pairs with
  different labels; the block finally stored is `log1p` of the product of the two sums.
-/
import proofs.«160342_j38628935860375_2_alg».proof.Proof.Gen.KernelIdeal.Skeleton
import proofs.«160342_j38628935860375_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
open Idealize.ShloMosaic.ValueIdx Cert.Circle

theorem lhs0 (j : S256x1024.Idx) (q : dot_S256x128_S1024x128_S256x1024_1_1_0_0_n_n.contr.Idx) : (dot_S256x128_S1024x128_S256x1024_1_1_0_0_n_n.lhsIdx j q 0).val = (j 0).val := by
  unfold DotDims.lhsIdx
  rw [dif_neg (show ¬(0 : Fin S256x128.rank) ∈ dot_S256x128_S1024x128_S256x1024_1_1_0_0_n_n.lhsBatch by decide), dif_pos (show (0 : Fin S256x128.rank) ∈ dot_S256x128_S1024x128_S256x1024_1_1_0_0_n_n.lhsNonContracting by decide)]
  rfl
theorem lhs1 (j : S256x1024.Idx) (q : dot_S256x128_S1024x128_S256x1024_1_1_0_0_n_n.contr.Idx) : (dot_S256x128_S1024x128_S256x1024_1_1_0_0_n_n.lhsIdx j q 1).val = (q ⟨0, by decide⟩).val :=
  dot_S256x128_S1024x128_S256x1024_1_1_0_0_n_n.lhsIdx_val_of_single rfl j q
theorem rhs0 (j : S256x1024.Idx) (q : dot_S256x128_S1024x128_S256x1024_1_1_0_0_n_n.contr.Idx) : (dot_S256x128_S1024x128_S256x1024_1_1_0_0_n_n.rhsIdx j q 0).val = (j 1).val := by
  unfold DotDims.rhsIdx
  rw [dif_neg (show ¬(0 : Fin S1024x128.rank) ∈ dot_S256x128_S1024x128_S256x1024_1_1_0_0_n_n.rhsBatch by decide), dif_pos (show (0 : Fin S1024x128.rank) ∈ dot_S256x128_S1024x128_S256x1024_1_1_0_0_n_n.rhsNonContracting by decide)]
  rfl
theorem rhs1 (j : S256x1024.Idx) (q : dot_S256x128_S1024x128_S256x1024_1_1_0_0_n_n.contr.Idx) : (dot_S256x128_S1024x128_S256x1024_1_1_0_0_n_n.rhsIdx j q 1).val = (q ⟨0, by decide⟩).val :=
  dot_S256x128_S1024x128_S256x1024_1_1_0_0_n_n.rhsIdx_val_of_single rfl j q

theorem matmul_at (q : FVec Ideal S256x128 .f32) (kk : FVec Ideal S1024x128 .f32) (r : Fin 256) (b : Fin 1024) :
    matmul dot_S256x128_S1024x128_S256x1024_1_1_0_0_n_n (some .fp32) q kk (constant S256x1024 .f32 0x00000000#32) (ix2 r b)
      = ∑ d : Fin 128, q (ix2 r d) * kk (ix2 b d) := by
  simp only [matmul]
  rw [Ideal.matmul_constant_zero_apply, ← Equiv.sum_comp (ValueIdx.contrEquiv1 dot_S256x128_S1024x128_S256x1024_1_1_0_0_n_n 128 rfl rfl).symm]
  refine Finset.sum_congr rfl fun k _ => ?_
  have hk := ValueIdx.contrEquiv1_symm_val dot_S256x128_S1024x128_S256x1024_1_1_0_0_n_n 128 rfl rfl k
  have el : dot_S256x128_S1024x128_S256x1024_1_1_0_0_n_n.lhsIdx (ix2 r b) ((ValueIdx.contrEquiv1 dot_S256x128_S1024x128_S256x1024_1_1_0_0_n_n 128 rfl rfl).symm k) = ix2 r k := funext fun a => Fin.ext (by
    match a with
    | ⟨0, _⟩ => exact lhs0 _ _
    | ⟨1, _⟩ => exact (lhs1 _ _).trans hk)
  have er : dot_S256x128_S1024x128_S256x1024_1_1_0_0_n_n.rhsIdx (ix2 r b) ((ValueIdx.contrEquiv1 dot_S256x128_S1024x128_S256x1024_1_1_0_0_n_n 128 rfl rfl).symm k) = ix2 b k := funext fun a => Fin.ext (by
    match a with
    | ⟨0, _⟩ => exact rhs0 _ _
    | ⟨1, _⟩ => exact (rhs1 _ _).trans hk)
  rw [el, er]

/-- the exponentiated term of one pair, from the mask bit and the similarity -/
def expTerm (msk : BitVec 1) (s : EReal) : EReal :=
  Ideal.exp (Scalar.select msk (expoP' s) ((c32 * max (s + c025) (Ideal.ofBits .f32 0x00000000#32)) * (s - c025)))

theorem pay9_at (q : FVec Ideal S256x128 .f32) (rl : IVec S256x1 32) (kk : Vec Ideal S1024x128 .f32) (cl : Vec Ideal S1x1024 .i32)
    (r : Fin 256) (b : Fin 1024) :
    k0_pay9 (F := Ideal) q rl kk cl (ix2 r b)
      = expTerm (k0_pay8 (F := Ideal) rl cl (ix2 r b)) (∑ d : Fin 128, q (ix2 r d) * kk (ix2 b d)) := by
  rw [← matmul_at q kk r b]
  unfold k0_pay9 expTerm expoP' cm32 c125 c075 c32 c025
  rw [shapeCast_self]
  rfl

theorem lift_row (h : S256x1024.Reduces [1] S256) (r : Fin 256) (b : Fin 1024) : h.lift (ix1 r) b = ix2 r b := by
  funext a
  match a with
  | ⟨0, _⟩ => rfl
  | ⟨1, _⟩ => rfl

/-- A lane sum over the 1024 columns, read at row `r` (the accumulator word is the zero word). -/
theorem rowsum_at (src : FVec Ideal S256x1024 .f32) (h : S256x1024.Reduces [1] S256) (hφ : FKind.Formats FTy.f32)
    (hacc : (0x00000000#32 : BitVec 32) = 0x00000000#32) (r : Fin 256) :
    multiReduction .add [1] S256 src 0x00000000#32 h hφ hacc (ix1 r) = ∑ b : Fin 1024, src (ix2 r b) := by
  refine (Ideal.multiReduction_add_single src 0x00000000#32 h hφ hacc (ix1 r)).trans ?_
  exact Finset.sum_congr rfl fun b _ => congrArg src (lift_row h r b)

/-- A vector of 256 entries viewed as a 256 x 1 column. -/
theorem column_at (v : FVec Ideal S256 .f32) (h : S256.ShapeCasts S256x1) (r : Fin 256) :
    shapeCast S256x1 v h (ix2 r 0) = v (ix1 r) := by
  refine shapeCast_apply v h (ix2 r 0) (ix1 r) ?_
  rw [Shape.rowMajor_val_one, Shape.rowMajor_val_two]
  show r.val = r.val * 1 + 0
  omega

def sameBit (rl : IVec S256x1 32) (cl : Vec Ideal S1x1024 .i32) (r : Fin 256) (b : Fin 1024) : BitVec 1 :=
  IntOp.cmpi .eq (rl (ix2 r 0)) (cl (ix2 0 b))

def offDiagBit (v1 : BitVec 32) (k : Fin k0_t1_loop.trips) (r : Fin 256) (b : Fin 1024) : BitVec 1 :=
  IntOp.xori (IntOp.cmpi .eq (IntOp.subi (BitVec.ofNat 32 r.val) (BitVec.ofNat 32 b.val))
    (Scalar.subi (Scalar.muli (Scf.iv 0#32 1#32 k) 1024#32) v1)) 1#1

theorem pay8_at (rl : IVec S256x1 32) (cl : Vec Ideal S1x1024 .i32) (r : Fin 256) (b : Fin 1024) :
    k0_pay8 (F := Ideal) rl cl (ix2 r b) = sameBit rl cl r b := by
  unfold k0_pay8 sameBit
  rw [shapeCast_self]
  show IntOp.cmpi .eq (broadcastTo S256x1024 rl _ (ix2 r b)) (broadcastTo S256x1024 cl _ (ix2 r b)) = _
  rw [broadcastTo_apply rl _ (ix2 r b) (ix2 r 0) (by intro a; match a with | ⟨0, _⟩ => rfl | ⟨1, _⟩ => rfl),
    broadcastTo_apply cl _ (ix2 r b) (ix2 0 b) (by intro a; match a with | ⟨0, _⟩ => rfl | ⟨1, _⟩ => rfl)]

theorem pay3_at (r : Fin 256) (b : Fin 1024) :
    k0_pay3 (ix2 r b) = IntOp.subi (BitVec.ofNat 32 r.val) (BitVec.ofNat 32 b.val) := by
  unfold k0_pay3
  show IntOp.subi (iota .tc S256x1024 32 [0] _ (ix2 r b)) (iota .tc S256x1024 32 [1] _ (ix2 r b)) = _
  rw [iota_single_apply, iota_single_apply]

theorem pay10_at (v1 : BitVec 32) (q : FVec Ideal S256x128 .f32) (rl : IVec S256x1 32) (k : Fin k0_t1_loop.trips)
    (acc : FVec Ideal S256x1 .f32) (kk : Vec Ideal S1024x128 .f32) (cl : Vec Ideal S1x1024 .i32) (r : Fin 256) :
    k0_pay10 (F := Ideal) v1 q rl k0_pay3 0#32 1#32 k acc kk cl (ix2 r 0)
      = acc (ix2 r 0) + ∑ b : Fin 1024, Scalar.select (IntOp.andi (sameBit rl cl r b) (offDiagBit v1 k r b))
          (expTerm (sameBit rl cl r b) (∑ d : Fin 128, q (ix2 r d) * kk (ix2 b d))) (Ideal.ofBits .f32 0x00000000#32) := by
  unfold k0_pay10
  show acc (ix2 r 0) + shapeCast S256x1 (multiReduction .add [1] S256 _ 0x00000000#32 _ _ _) _ (ix2 r 0) = _
  rw [column_at, rowsum_at]
  refine congrArg (acc (ix2 r 0) + ·) (Finset.sum_congr rfl fun b _ => ?_)
  show Scalar.select (IntOp.andi (k0_pay8 rl cl (ix2 r b)) (IntOp.xori (IntOp.cmpi .eq (k0_pay3 (ix2 r b)) _) 1#1)) (k0_pay9 q rl kk cl (ix2 r b)) _ = _
  rw [pay8_at, pay9_at, pay3_at, pay8_at]
  rfl

theorem pay11_at (q : FVec Ideal S256x128 .f32) (rl : IVec S256x1 32)
    (acc : FVec Ideal S256x1 .f32) (kk : Vec Ideal S1024x128 .f32) (cl : Vec Ideal S1x1024 .i32) (r : Fin 256) :
    k0_pay6 (F := Ideal) acc (k0_pay11 q rl kk cl) (ix2 r 0)
      = acc (ix2 r 0) + ∑ b : Fin 1024, Scalar.select (sameBit rl cl r b) (Ideal.ofBits .f32 0x00000000#32)
          (expTerm (sameBit rl cl r b) (∑ d : Fin 128, q (ix2 r d) * kk (ix2 b d))) := by
  unfold k0_pay6 k0_pay11
  show acc (ix2 r 0) + shapeCast S256x1 (multiReduction .add [1] S256 _ 0x00000000#32 _ _ _) _ (ix2 r 0) = _
  rw [column_at, rowsum_at]
  refine congrArg (acc (ix2 r 0) + ·) (Finset.sum_congr rfl fun b _ => ?_)
  show Scalar.select (k0_pay8 rl cl (ix2 r b)) _ (k0_pay9 q rl kk cl (ix2 r b)) = _
  rw [pay8_at, pay9_at, pay8_at]
  rfl

theorem pay7_at (p n : FVec Ideal S256x1 .f32) (y : S256x1.Idx) :
    k0_pay7 (F := Ideal) p n y = Ideal.log1p (p y * n y) := rfl

theorem pay4_at (y : S256x1.Idx) : k0_pay4 (F := Ideal) y = Ideal.ofBits .f32 0x00000000#32 := rfl
theorem pay5_at (y : S256x1.Idx) : k0_pay5 (F := Ideal) y = Ideal.ofBits .f32 0x00000000#32 := rfl

end Cert.KernelIdeal.KValue
end
-- ==== Proof.KernelRows.lean ====
/-
  What a grid point of the kernel stores for one of its rows is that row's contribution to the loss.

  Grid point `i` owns the 256 rows `256·i + r` of the matrix `A` of normalised rows, and walks the matrix in
  eight chunks of 1024 rows, chunk `k` holding the rows `1024·k + b`.  Read in these global coordinates:
  the inner product of an owned row with a chunk's row is the similarity of the two global rows; the label
  mask of a pair is set exactly when the two labels agree; the off-diagonal mask compares, on 32-bit words,
  the local difference `r - b` with the difference `1024·k - 256·i` of the blocks' offsets, and since every
  quantity is far below `2 ^ 32` it is set exactly when the two global rows differ.  So the term a chunk adds
  to the positive running sum for a pair is `exp` of the positive exponent where the labels agree off the
  diagonal and `0` elsewhere, and the term it adds to the negative running sum is `0` where the labels agree
  and `exp` of the negative exponent elsewhere.  By induction on the number of chunks done, each running sum
  is the sum of those terms over the chunks so far; eight chunks of 1024 rows are the 8192 rows, so after the
  eighth chunk the two sums are the specification's sums over all rows, and `log1p` of their product is the
  row's contribution.
-/
import proofs.«160342_j38628935860375_2_alg».proof.Proof.KernelTrip
import proofs.«160342_j38628935860375_2_alg».proof.Proof.KernelChunk
import proofs.«160342_j38628935860375_2_alg».proof.Proof.Spec
import Idealize.ShloMosaic.Lib.Affine

set_option maxRecDepth 16384

noncomputable section

open Idealize.ShloMosaic Idealize.ShloMosaic.TcCoe Idealize.SL.Sem

namespace Cert.KernelIdeal.KValue

open Cert.KernelIdeal Cert.KernelIdeal.Gen
open Idealize.ShloMosaic.ValueIdx Cert.Circle

theorem trips_eq : k0_t1_loop.trips = 8 := by decide

/-- The global row of local row `r` of the block of 256 rows that grid point `i` owns. -/
def gRow (i : grid0.Coords) (r : Fin 256) : Fin 8192 :=
  ⟨256 * (i 0).val + r.val, by have h : (i 0).val < 32 := (i 0).isLt; have := r.isLt; omega⟩

/-- The global row of local row `b` of chunk `k` (1024 rows to a chunk). -/
def gCol (k : Fin k0_t1_loop.trips) (b : Fin 1024) : Fin 8192 :=
  ⟨1024 * k.val + b.val, by
    have h : k.val < k0_t1_loop.trips := k.isLt
    have h8 : k0_t1_loop.trips = 8 := trips_eq
    have := b.isLt
    omega⟩

theorem pay1_eq (v : Vec Ideal S256x128 .f32) : k0_pay1 (F := Ideal) v = v := shapeCast_self v _

/-- The rows a grid point owns are rows `256·i …` of the matrix. -/
theorem ownRows_at (i : grid0.Coords) (A : Vec Ideal S8192x128 .f32) (r : Fin 256) (d : Fin 128) :
    ownRows (F := Ideal) i A (ix2 r d) = A (ix2 (gRow i r) d) := by
  show k0_pay1 (F := Ideal) (View.ld A (Rect.unit (s := S8192x128) (k0_off1 i) S256x128.size (k0_off1_inb i))) (ix2 r d) = _
  rw [pay1_eq]
  refine congrArg A (funext fun a => Fin.ext ?_)
  match a with
  | ⟨0, _⟩ =>
    show k0_off1 i 0 + 1 * r.val = 256 * (i 0).val + r.val
    rw [k0_off1_eq]; simp
  | ⟨1, _⟩ =>
    show k0_off1 i 1 + 1 * d.val = d.val
    rw [k0_off1_eq]; simp

/-- The rows of chunk `k` are rows `1024·k …` of the matrix. -/
theorem chunkRows_at (k : Fin k0_t1_loop.trips) (A : Vec Ideal S8192x128 .f32) (b : Fin 1024) (d : Fin 128) :
    chunkRows (F := Ideal) k A (ix2 b d) = A (ix2 (gCol k b) d) := by
  refine congrArg A (funext fun a => Fin.ext ?_)
  match a with
  | ⟨0, _⟩ =>
    show k0_off3 k 0 + 1 * b.val = 1024 * k.val + b.val
    rw [k0_off3_eq]; simp
  | ⟨1, _⟩ =>
    show k0_off3 k 1 + 1 * d.val = d.val
    rw [k0_off3_eq]; simp

/-- The labels of chunk `k` are labels `1024·k …`. -/
theorem chunkLabels_at (k : Fin k0_t1_loop.trips) (Lb : Vec Ideal S1x8192 .i32) (b : Fin 1024) :
    chunkLabels (F := Ideal) k Lb (ix2 0 b) = Lb (ix2 0 (gCol k b)) := by
  refine congrArg Lb (funext fun a => Fin.ext ?_)
  match a with
  | ⟨0, _⟩ =>
    show k0_off4 k 0 + 1 * 0 = 0
    rw [k0_off4_eq]; simp
  | ⟨1, _⟩ =>
    show k0_off4 k 1 + 1 * b.val = 1024 * k.val + b.val
    rw [k0_off4_eq]; simp

/-- The labels a grid point owns, as a column, are labels `256·i …`. -/
theorem ownLabels_at (i : grid0.Coords) (Lb : Vec Ideal S1x8192 .i32) (r : Fin 256) :
    ownLabels (F := Ideal) i Lb (ix2 r 0) = Lb (ix2 0 (gRow i r)) := by
  show transpose S256x1 [1, 0] (shapeCast S1x256 (View.ld Lb (Rect.unit (s := S1x8192) (k0_off2 i) S1x256.size (k0_off2_inb i))) shapeCasts_S1x256_S1x256) transposes_S1x256_p1_0_S256x1 (ix2 r 0) = _
  rw [transpose_apply [1, 0] _ transposes_S1x256_p1_0_S256x1 (ix2 r 0) (ix2 0 r)
    (fun b => by match b with | ⟨0, _⟩ => rfl | ⟨1, _⟩ => rfl)]
  refine (congrFun (shapeCast_self (s := S1x256) _ shapeCasts_S1x256_S1x256) (ix2 0 r)).trans ?_
  refine congrArg Lb (funext fun a => Fin.ext ?_)
  match a with
  | ⟨0, _⟩ =>
    show k0_off2 i 0 + 1 * 0 = 0
    rw [k0_off2_eq]; simp
  | ⟨1, _⟩ =>
    show k0_off2 i 1 + 1 * r.val = 256 * (i 0).val + r.val
    rw [k0_off2_eq]; simp

/-- The label mask of a pair is set exactly when the two labels are equal. -/
theorem sameBit_iff (rl : IVec S256x1 32) (cl : Vec Ideal S1x1024 .i32) (r : Fin 256) (b : Fin 1024) :
    sameBit rl cl r b = 1#1 ↔ rl (ix2 r 0) = cl (ix2 0 b) := by
  unfold sameBit; exact IntOp.cmpi_eq

/-- On 32-bit words, with every quantity far below `2 ^ 32`: the local difference `r - b` equals the difference
    `1024·k - 256·t` of the two blocks' offsets exactly when the global rows `256·t + r` and `1024·k + b` coincide. -/
theorem diag_word (t r k b : Nat) (ht : t < 32) (hr : r < 256) (hk : k < 8) (hb : b < 1024) :
    BitVec.ofNat 32 r - BitVec.ofNat 32 b = (0#32 + BitVec.ofNat 32 k * 1#32) * 1024#32 - BitVec.ofNat 32 t * 256#32
      ↔ 256 * t + r = 1024 * k + b := by
  constructor
  · intro h; bv_omega
  · intro h; bv_omega

theorem xori_one_iff (c : BitVec 1) : IntOp.xori c 1#1 = 1#1 ↔ ¬ c = 1#1 := by revert c; decide

/-- The off-diagonal mask of a pair is set exactly when the two global rows differ. -/
theorem offDiagBit_iff (i : grid0.Coords) (k : Fin k0_t1_loop.trips) (r : Fin 256) (b : Fin 1024) :
    offDiagBit (rowOff i) k r b = 1#1 ↔ gRow i r ≠ gCol k b := by
  unfold offDiagBit
  rw [xori_one_iff, IntOp.cmpi_eq]
  have ht : (i 0).val < 32 := (i 0).isLt
  have hk : k.val < 8 := by have h := k.isLt; have h8 : k0_t1_loop.trips = 8 := trips_eq; omega
  have e := diag_word (i 0).val r.val k.val b.val ht r.isLt hk b.isLt
  refine (not_congr (e.trans ?_))
  constructor
  · intro h; exact Fin.ext h
  · intro h; exact congrArg Fin.val h

/-- The positive term of a pair, from its two mask bits: the exponentiated positive exponent where the labels
    agree off the diagonal, and `0` elsewhere. -/
theorem posTerm_eq (sb ob : BitVec 1) (s : EReal) (P Q : Prop) [Decidable P] [Decidable Q]
    (hs : sb = 1#1 ↔ P) (ho : ob = 1#1 ↔ Q) :
    Scalar.select (IntOp.andi sb ob) (expTerm sb s) (Ideal.ofBits .f32 0x00000000#32)
      = if P ∧ Q then Ideal.exp (expoP' s) else 0 := by
  by_cases h : P ∧ Q
  · have h1 : sb = 1#1 := hs.mpr h.1
    rw [if_pos h, IntOp.andi_eq_one.mpr ⟨h1, ho.mpr h.2⟩, select_one, h1]
    unfold expTerm
    rw [select_one]
  · rw [if_neg h, eq_zero_of_ne_one (fun hc => h ⟨hs.mp (IntOp.andi_eq_one.mp hc).1, ho.mp (IntOp.andi_eq_one.mp hc).2⟩),
      select_zero, Ideal.ofBits_zero_f32]

/-- The negative term of a pair: `0` where the labels agree, the exponentiated negative exponent elsewhere. -/
theorem negTerm_eq (sb : BitVec 1) (s : EReal) (P : Prop) [Decidable P] (hs : sb = 1#1 ↔ P) :
    Scalar.select sb (Ideal.ofBits .f32 0x00000000#32) (expTerm sb s) = if P then 0 else Ideal.exp (expoN s) := by
  by_cases h : P
  · rw [if_pos h, hs.mpr h, select_one, Ideal.ofBits_zero_f32]
  · have h0 : sb = 0#1 := eq_zero_of_ne_one (fun hc => h (hs.mp hc))
    rw [if_neg h, h0, select_zero]
    unfold expTerm expoN
    rw [select_zero, Ideal.ofBits_zero_f32]

/-- Eight chunks of 1024 rows are the 8192 rows. -/
theorem chunks_sum {M : Type*} [AddCommMonoid M] (g : Fin 8192 → M) :
    ∑ k ∈ Finset.range 8, (if h : k < k0_t1_loop.trips then ∑ b : Fin 1024, g (gCol ⟨k, h⟩ b) else 0)
      = ∑ J : Fin 8192, g J := by
  rw [Finset.sum_range]
  have e : ∀ k : Fin 8, (if h : k.val < k0_t1_loop.trips then ∑ b : Fin 1024, g (gCol ⟨k.val, h⟩ b) else 0)
      = ∑ b : Fin 1024, g (finProdFinEquiv (k, b)) := fun k => by
    have hk : k.val < k0_t1_loop.trips := by rw [trips_eq]; exact k.isLt
    rw [dif_pos hk]
    refine Finset.sum_congr rfl fun b _ => congrArg g (Fin.ext ?_)
    show 1024 * k.val + b.val = b.val + 1024 * k.val
    omega
  simp only [e]
  rw [← Fintype.sum_prod_type (f := fun p : Fin 8 × Fin 1024 => g (finProdFinEquiv p))]
  exact Equiv.sum_comp (finProdFinEquiv (m := 8) (n := 1024)) g

section Rows

variable (i : grid0.Coords) (x : Cert.Circle.Feats) (lab : Cert.Circle.Labels) (A : Vec Ideal S8192x128 .f32) (Lb : Vec Ideal S1x8192 .i32)
  (hA : ∀ (R : Fin 8192) (d : Fin 128), A (ix2 R d) = unit x R d) (hL : ∀ J : Fin 8192, Lb (ix2 0 J) = lab (ix1 J))

include hA in
/-- The inner product of an owned row with a chunk's row is the similarity of the two global rows. -/
theorem dot_eq (k : Fin k0_t1_loop.trips) (r : Fin 256) (b : Fin 1024) :
    ∑ d : Fin 128, ownRows (F := Ideal) i A (ix2 r d) * chunkRows (F := Ideal) k A (ix2 b d) = sim x (gRow i r) (gCol k b) := by
  unfold sim
  refine Finset.sum_congr rfl fun d _ => ?_
  rw [ownRows_at, chunkRows_at, hA, hA]

include hL in
/-- The label mask of a pair, in global rows. -/
theorem same_iff (k : Fin k0_t1_loop.trips) (r : Fin 256) (b : Fin 1024) :
    sameBit (ownLabels (F := Ideal) i Lb) (chunkLabels (F := Ideal) k Lb) r b = 1#1 ↔ same lab (gRow i r) (gCol k b) := by
  rw [sameBit_iff, ownLabels_at, chunkLabels_at, hL, hL]

include hA hL in
/-- The positive running sum of row `r` before chunk `n`: the positive terms of the chunks before it. -/
theorem carried_fst (r : Fin 256) : ∀ n : ℕ, (carried (F := Ideal) i A Lb n).1 (ix2 r 0)
    = ∑ k ∈ Finset.range n, (if h : k < k0_t1_loop.trips then ∑ b : Fin 1024,
        (if same lab (gRow i r) (gCol ⟨k, h⟩ b) ∧ gRow i r ≠ gCol ⟨k, h⟩ b
          then Ideal.exp (expoP' (sim x (gRow i r) (gCol ⟨k, h⟩ b))) else 0) else 0)
  | 0 => by
    rw [Finset.range_zero, Finset.sum_empty]
    show k0_pay4 (F := Ideal) (ix2 r 0) = 0
    rw [pay4_at, Ideal.ofBits_zero_f32]
  | n + 1 => by
    rw [Finset.sum_range_succ, ← carried_fst r n, carried]
    by_cases h : n < k0_t1_loop.trips
    · rw [dif_pos h, dif_pos h]
      unfold chunk
      show k0_pay10 (F := Ideal) (rowOff i) (ownRows i A) (ownLabels (F := Ideal) i Lb) k0_pay3 0#32 1#32 ⟨n, h⟩
        (carried i A Lb n).1 (chunkRows ⟨n, h⟩ A) (chunkLabels ⟨n, h⟩ Lb) (ix2 r 0) = _
      rw [pay10_at]
      refine congrArg (_ + ·) (Finset.sum_congr rfl fun b _ => ?_)
      rw [dot_eq i x A hA]
      exact posTerm_eq _ _ _ _ _ (same_iff i lab Lb hL ⟨n, h⟩ r b) (offDiagBit_iff i ⟨n, h⟩ r b)
    · rw [dif_neg h, dif_neg h, add_zero]

include hA hL in
/-- The negative running sum of row `r` before chunk `n`. -/
theorem carried_snd (r : Fin 256) : ∀ n : ℕ, (carried (F := Ideal) i A Lb n).2 (ix2 r 0)
    = ∑ k ∈ Finset.range n, (if h : k < k0_t1_loop.trips then ∑ b : Fin 1024,
        (if same lab (gRow i r) (gCol ⟨k, h⟩ b) then 0
          else Ideal.exp (expoN (sim x (gRow i r) (gCol ⟨k, h⟩ b)))) else 0)
  | 0 => by
    rw [Finset.range_zero, Finset.sum_empty]
    show k0_pay5 (F := Ideal) (ix2 r 0) = 0
    rw [pay5_at, Ideal.ofBits_zero_f32]
  | n + 1 => by
    rw [Finset.sum_range_succ, ← carried_snd r n, carried]
    by_cases h : n < k0_t1_loop.trips
    · rw [dif_pos h, dif_pos h]
      unfold chunk
      show k0_pay6 (F := Ideal) (carried i A Lb n).2 (k0_pay11 (ownRows i A) (ownLabels (F := Ideal) i Lb)
        (chunkRows ⟨n, h⟩ A) (chunkLabels ⟨n, h⟩ Lb)) (ix2 r 0) = _
      rw [pay11_at]
      refine congrArg (_ + ·) (Finset.sum_congr rfl fun b _ => ?_)
      rw [dot_eq i x A hA]
      exact negTerm_eq _ _ _ (same_iff i lab Lb hL ⟨n, h⟩ r b)
    · rw [dif_neg h, dif_neg h, add_zero]

include hA hL in
/-- What a grid point stores for its local row `r` is the contribution of the global row `256·i + r` to the loss
    (with the positive exponent as the kernel writes it). -/
theorem block_row (r : Fin 256) :
    k0_pay7 (F := Ideal) (carried i A Lb 8).1 (carried i A Lb 8).2 (ix2 r 0) = rowLossWith expoP' x lab (gRow i r) := by
  rw [pay7_at, carried_fst i x lab A Lb hA hL r 8, carried_snd i x lab A Lb hA hL r 8,
    chunks_sum (fun J => if same lab (gRow i r) J ∧ gRow i r ≠ J then Ideal.exp (expoP' (sim x (gRow i r) J)) else 0),
    chunks_sum (fun J => if same lab (gRow i r) J then 0 else Ideal.exp (expoN (sim x (gRow i r) J)))]
  rfl

end Rows

end Cert.KernelIdeal.KValue

end
-- ==== Proof.KernelHost.lean ====
/-
  The lines of the kernel program before and after its region, read at an index.

  Before the region the program squares the matrix, sums the squares along each row (from `0`), takes the
  square root of each row sum, and divides every entry by the square root of its row: the array the first
  input window reads is the matrix of normalised rows, `unit x R d` at `(R, d)`.  The labels are laid out
  as one row of 8192 words; entry `(0, J)` is label `J`.  After the region the program sums the 8192 x 1
  column the region wrote (from `0`) and divides by 8192: the result is the mean of the column.
-/
import proofs.«160342_j38628935860375_2_alg».proof.Proof.Gen.KernelIdeal.Frame
import proofs.«160342_j38628935860375_2_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.Circle
open Idealize.ShloMosaic Idealize.ShloMosaic.ValueIdx Idealize.ShloMosaic.TcCoe Idealize.ShloMosaic.StableHlo Idealize.SL.Sem
open scoped BigOperators

variable (m : (ℓ : Loc nD τ sig) → Buf (Elt Ideal) ℓ) (c : Dev nD)

/-- Inserting the coordinate `k` on the second axis of the row index `R` gives the matrix index `(R, k)`. -/
theorem host_lift_row (hR : S8192x128.Reduces [1] S8192) (R : Fin 8192) (k : Fin 128) :
    hR.lift (ix1 R) k = ix2 R k := by
  funext a
  apply Fin.ext
  match a with
  | ⟨0, _⟩ => rfl
  | ⟨1, _⟩ => rfl

/-- The sum of the squares over the second axis, started at the zero word, is the squared norm of the row. -/
theorem host_rowsum_at (x : S8192x128.Idx → EReal) (R : Fin 8192) :
    Host.reduceAdd (F := Ideal) (φ := .f32) (mulf x x) (constant (F := Ideal) S_ .f32 0x00000000#32)
      Facts₀.reducesTo_S8192x128_S8192_d1 Facts₀.h_S_ (ix1 R) = nsq x R := by
  have hR : S8192x128.Reduces [1] S8192 := by decide
  show Ideal.hostReduceAdd Facts₀.reducesTo_S8192x128_S8192_d1 (fun j => x j * x j)
    (Ideal.ofBits .f32 0x00000000#32) (ix1 R) = _
  rw [Ideal.hostReduceAdd_single Facts₀.reducesTo_S8192x128_S8192_d1 hR, Ideal.ofBits_zero_f32, zero_add]
  unfold nsq
  refine Finset.sum_congr rfl fun k _ => ?_
  show x (hR.lift (ix1 R) k) * x (hR.lift (ix1 R) k) = _
  rw [host_lift_row hR R k]

/-- The quotient of the matrix by the broadcast square roots of the row sums, read at `(R, d)`, is the
    entry `d` of the normalised row `R`. -/
theorem unit_term_at (x : S8192x128.Idx → EReal) (R : Fin 8192) (d : Fin 128) :
    Host.divf (F := Ideal) (φ := .f32) x
      (broadcastInDim S8192x128 ![0, 1] Facts₀.bcast_S8192x1_S8192x128_0_1
        (Host.sqrt (broadcastInDim S8192x1 ![0] Facts₀.bcast_S8192_S8192x1_0
          (Host.reduceAdd (mulf x x) (constant (F := Ideal) S_ .f32 0x00000000#32)
            Facts₀.reducesTo_S8192x128_S8192_d1 Facts₀.h_S_)))) (ix2 R d) = unit x R d := by
  show Ideal.div (x (ix2 R d)) (broadcastInDim S8192x128 ![0, 1] Facts₀.bcast_S8192x1_S8192x128_0_1
        (Host.sqrt (F := Ideal) (φ := .f32) (broadcastInDim S8192x1 ![0] Facts₀.bcast_S8192_S8192x1_0
          (Host.reduceAdd (mulf x x) (constant (F := Ideal) S_ .f32 0x00000000#32)
            Facts₀.reducesTo_S8192x128_S8192_d1 Facts₀.h_S_))) (ix2 R d)) = _
  rw [broadcastInDim_apply ![0, 1] Facts₀.bcast_S8192x1_S8192x128_0_1 _ (ix2 R d) (ix2 R (0 : Fin 1)) (by
    intro a
    match a with
    | ⟨0, _⟩ => rfl
    | ⟨1, _⟩ => rfl)]
  show Ideal.div (x (ix2 R d)) (Ideal.sqrt (broadcastInDim S8192x1 ![0] Facts₀.bcast_S8192_S8192x1_0
          (Host.reduceAdd (F := Ideal) (φ := .f32) (mulf x x) (constant (F := Ideal) S_ .f32 0x00000000#32)
            Facts₀.reducesTo_S8192x128_S8192_d1 Facts₀.h_S_) (ix2 R (0 : Fin 1)))) = _
  rw [broadcastInDim_apply ![0] Facts₀.bcast_S8192_S8192x1_0 _ (ix2 R (0 : Fin 1)) (ix1 R) (by
    intro a
    match a with
    | ⟨0, _⟩ => rfl), host_rowsum_at]
  rfl

/-- What the first input window's array holds when the region is entered: the rows of the matrix divided
    by their norms. -/
theorem V5_at (R : Fin 8192) (d : Fin 128) :
    V m c main_v5 (ix2 R d) = unit (m ((c : Thread nD τ).loc main_arg0)) R d := by
  have e : (V m c main_v5 : S8192x128.Idx → EReal) =
      Host.divf (m ((c : Thread nD τ).loc main_arg0))
        (broadcastInDim S8192x128 ![0, 1] Facts₀.bcast_S8192x1_S8192x128_0_1
          (Host.sqrt (broadcastInDim S8192x1 ![0] Facts₀.bcast_S8192_S8192x1_0
            (Host.reduceAdd (mulf (m ((c : Thread nD τ).loc main_arg0)) (m ((c : Thread nD τ).loc main_arg0)))
              (constant (F := Ideal) S_ .f32 0x00000000#32) Facts₀.reducesTo_S8192x128_S8192_d1 Facts₀.h_S_)))) := by
    show StableHlo.after hostOps0 (fun b => m (c, b)) (Proc.devRef .tc main_v5) = _
    after_results
  rw [e]
  exact unit_term_at _ R d

/-- What the second input window's array holds when the region is entered: the labels as one row. -/
theorem V6_at (J : Fin 8192) :
    V m c main_v6 (ix2 (0 : Fin 1) J) = (m ((c : Thread nD τ).loc main_arg1)) (ix1 J) := by
  have e : (V m c main_v6 : S1x8192.Idx → BitVec 32) =
      shapeCast S1x8192 (m ((c : Thread nD τ).loc main_arg1)) Facts₀.shapeCasts_S8192_S1x8192 := by
    show StableHlo.after hostOps0 (fun b => m (c, b)) (Proc.devRef .tc main_v6) = _
    after_results
    rfl
  rw [e]
  refine shapeCast_apply _ Facts₀.shapeCasts_S8192_S1x8192 (ix2 (0 : Fin 1) J) (ix1 J) ?_
  rw [Shape.rowMajor_val_two, Shape.rowMajor_val_one]
  show J.val = (0 : ℕ) * 8192 + J.val
  omega

/-- The mean of an `8192 x 1` column: the sum over both axes, started at the zero word, divided by the
    word of `8192`. -/
theorem tail_at (G7 : S8192x1.Idx → EReal) (p : S_.Idx) :
    Host.divf (F := Ideal) (φ := .f32)
      (Host.reduceAdd G7 (constant (F := Ideal) S_ .f32 0x00000000#32) Facts₀.reducesTo_S8192x1_S_d0_1 Facts₀.h_S_)
      (constant (F := Ideal) S_ .f32 0x46000000#32) p
      = Ideal.div (∑ R : Fin 8192, G7 (ix2 R (0 : Fin 1))) c8192 := by
  show Ideal.div (Ideal.hostReduceAdd Facts₀.reducesTo_S8192x1_S_d0_1 G7 (Ideal.ofBits .f32 0x00000000#32) p)
    (Ideal.ofBits .f32 0x46000000#32) = _
  rw [Ideal.hostReduceAdd_total Facts₀.reducesTo_S8192x1_S_d0_1 (fun b => b.elim0), Ideal.ofBits_zero_f32, zero_add,
    sum_idx2]
  simp only [Fin.sum_univ_one]
  rfl

/-- The program's result, given what the region leaves in its output array `G7` (an `8192 x 1` column):
    the lines after the region read that column, so the result is its mean. -/
theorem result_of_final (G7 : Buf (Elt Ideal) ((c : Thread nD τ).loc main_v7))
    (hfinal : (dats m 0 c).arrAt 2 cfg0.N = G7) :
    Pipeline.afterTail₀ cfgs (dats m) 0 (V0 m) [hostOps1] c main_v9
      = fun _ => Ideal.div (∑ R : Fin 8192, G7 (ix2 R (0 : Fin 1))) c8192 := by
  unfold Pipeline.afterTail₀
  show StableHlo.after hostOps1 _ (Proc.devRef .tc main_v9) = _
  after_results
  rw [show Pipeline.withArrays (cfgs 0).spec c (V0 m c) (fun w => (dats m 0 c).arrAt w (cfgs 0).N)
      (Proc.devRef .tc main_v7) = G7 from
    (Pipeline.withArrays_arr spec0 launch0.win.arr_inj c _ _ 2).trans hfinal]
  funext p
  exact tail_at G7 p

end Cert.KernelIdeal.KValue

end
-- ==== Proof.KernelValue.lean ====
/-
  The kernel program's result, as one function of its two arguments.

  The region's first operand is the whole normalised matrix and its second the whole row of labels,
  the same at every one of the 32 grid points; the output's block at point `t` is rows
  `256·t … 256·t + 255` of an 8192 x 1 array.  Each block holds, row by row, the row's contribution
  `log1p (positive sum · negative sum)` (with the `relu` on `1.25 - s` left out), so the 32 blocks
  tile the array with ONE function of the row index, and the host lines after the region turn it into
  the mean over the rows.
-/
import proofs.«160342_j38628935860375_2_alg».proof.Proof.Gen.KernelIdeal.Frame
import proofs.«160342_j38628935860375_2_alg».proof.Proof.KernelTrip
import proofs.«160342_j38628935860375_2_alg».proof.Proof.KernelRows
import proofs.«160342_j38628935860375_2_alg».proof.Proof.KernelHost
import proofs.«160342_j38628935860375_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.Circle

variable (m : (ℓ : Loc nD τ sig) → Buf (Elt Ideal) ℓ) (ρ : Dev nD → PrngReg)

/-- The printed index maps, decided over the 32 grid points -/
theorem idx_facts : ∀ t : Fin cfg0.N, win0_2.index t (0 : Fin 2) = t.val ∧ win0_2.index t (1 : Fin 2) = 0
    ∧ win0_0.index t (0 : Fin 2) = 0 ∧ win0_0.index t (1 : Fin 2) = 0
    ∧ win0_1.index t (0 : Fin 2) = 0 ∧ win0_1.index t (1 : Fin 2) = 0
    ∧ (grid0.coords t 0).val = t.val :=
  (by decide +kernel : ∀ t : Fin grid0.N, _)

theorem iblk0_at (c : Dev nD) (t : Fin cfg0.N) (R : Fin 8192) (d : Fin 128) :
    iblk m c 0 t (ix2 R d) = V m c main_v5 (ix2 R d) := by
  obtain ⟨-, -, e0, e1, -, -, -⟩ := idx_facts t
  unfold iblk
  rw [View.read_apply]
  show V m c main_v5 _ = V m c main_v5 _
  congr 1
  funext a
  apply Fin.ext
  match a with
  | ⟨0, _⟩ => show win0_0.index t (0 : Fin 2) * 8192 + 1 * R.val = R.val; rw [e0]; omega
  | ⟨1, _⟩ => show win0_0.index t (1 : Fin 2) * 128 + 1 * d.val = d.val; rw [e1]; omega

theorem iblk1_at (c : Dev nD) (t : Fin cfg0.N) (J : Fin 8192) :
    iblk m c 1 t (ix2 0 J) = V m c main_v6 (ix2 0 J) := by
  obtain ⟨-, -, -, -, e0, e1, -⟩ := idx_facts t
  unfold iblk
  rw [View.read_apply]
  show V m c main_v6 _ = V m c main_v6 _
  congr 1
  funext a
  apply Fin.ext
  match a with
  | ⟨0, _⟩ => show win0_1.index t (0 : Fin 2) * 1 + 1 * 0 = 0; rw [e0]
  | ⟨1, _⟩ => show win0_1.index t (1 : Fin 2) * 8192 + 1 * J.val = J.val; rw [e1]; omega

theorem mem_blk (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v7).slice (win0_2.rect t)).set ↔ _
  rw [View.set_slice_whole, Rect.mem_set_unit]
  exact Iff.rfl

theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  refine ⟨⟨(i 0).val / 256, by rw [hN]; omega⟩, flush0_2 _, ?_⟩
  rw [mem_blk]
  obtain ⟨e0, e1, -, -, -, -, -⟩ := idx_facts ⟨(i 0).val / 256, by rw [hN]; omega⟩
  intro a
  match a with
  | ⟨0, _⟩ => show win0_2.index _ (0 : Fin 2) * 256 ≤ (i 0).val ∧ (i 0).val < win0_2.index _ (0 : Fin 2) * 256 + 256; rw [e0]; dsimp only; omega
  | ⟨1, _⟩ => show win0_2.index _ (1 : Fin 2) * 1 ≤ (i 1).val ∧ (i 1).val < win0_2.index _ (1 : Fin 2) * 1 + 1; rw [e1]; omega

/-- The array of the rows' contributions the region leaves: row `R` holds row `R`'s contribution. -/
def rowsArray (c : Dev nD) : S8192x1.Idx → EReal := fun idx =>
  rowLossWith expoP' (m ((c : Thread nD τ).loc main_arg0)) (m ((c : Thread nD τ).loc main_arg1)) ⟨(idx 0).val, idx2_lt0 idx⟩

/-- What grid point `t` writes back is block `t` of that array. -/
theorem flushed_eq (c : Dev nD) (t : Fin cfg0.N) :
    (dats m 0 c).flushed 2 t = ((cfg0.win 2).blk t).view.read (Elt Ideal) (rowsArray m c) := by
  show (cfg0.win 2).cut (grid0.coords t) ((dats m 0 c).after 2 t) = _
  rw [after0_2]
  unfold outsAt0
  rw [block_eq c (grid0.coords t) (ms0_0 t) (hs0_0 t) (ms0_1 t) (hs0_1 t) (ms0_2 t) (hs0_2 t) (iblk m c 0 t) (iblk m c 1 t)]
  obtain ⟨e0, e1, -, -, -, -, eg⟩ := idx_facts t
  funext y
  obtain ⟨r, q, rfl⟩ : ∃ (r : Fin 256) (q : Fin 1), y = ix2 r q := ⟨y 0, y 1, eq_ix2 y⟩
  obtain rfl : q = 0 := Subsingleton.elim _ _
  show k0_pay7 (F := Ideal) (carried (grid0.coords t) (iblk m c 0 t) (iblk m c 1 t) 8).1
      (carried (grid0.coords t) (iblk m c 0 t) (iblk m c 1 t) 8).2 (ix2 r 0)
    = rowsArray m c (((cfg0.win 2).blk t).view.emb (ix2 r 0))
  refine (block_row (grid0.coords t) (m ((c : Thread nD τ).loc main_arg0)) (m ((c : Thread nD τ).loc main_arg1))
    (iblk m c 0 t) (iblk m c 1 t) (fun R d => (iblk0_at m c t R d).trans (V5_at m c R d))
    (fun J => (iblk1_at m c t J).trans (V6_at m c J)) r).trans ?_
  unfold rowsArray
  refine congrArg (rowLossWith expoP' (m ((c : Thread nD τ).loc main_arg0)) (m ((c : Thread nD τ).loc main_arg1))) (Fin.ext ?_)
  show 256 * (grid0.coords t 0).val + r.val = win0_2.index t (0 : Fin 2) * 256 + 1 * r.val
  rw [eg, e0]; omega

/-- The 32 blocks tile the array, so it ends holding the rows' contributions. -/
theorem final (c : Dev nD) : (dats m 0 c).arrAt 2 cfg0.N = rowsArray m c :=
  (dats m 0 c).arrAt_eq_of_cover 2 (rowsArray m c) (fun t _ => flushed_eq m c t) cover

/-- The mean of the rows' contributions is the loss (with the `relu` left out). -/
theorem mean_rows (c : Dev nD) :
    Ideal.div (∑ R : Fin 8192, rowsArray m c (ix2 R 0)) c8192
      = loss' (m ((c : Thread nD τ).loc main_arg0)) (m ((c : Thread nD τ).loc main_arg1)) := rfl

/-- The kernel program's run: its result is the loss, its arguments are unchanged. -/
theorem run : θ_run defs (onTc (τ := τ) (main (F := Ideal))) ⟨m, fun _ => 0, ρ⟩ fun r => ∀ c : Dev nD,
      r.2.mem ((c.tc : Thread nD τ).loc main_v9)
        = (fun _ => loss' (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans
        ((result_of_final m c (rowsArray m c) (final m c)).trans (funext fun _ => mean_rows m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The circle loss of an 8192 x 128 feature matrix with integer labels: the fused kernel against the
  plain reference, on the extended reals.

  Both programs divide each row by its Euclidean norm, take the inner products `s` of all pairs of
  normalised rows, and for row `i` sum `exp (-32 · a⁺ · (s - 0.75))` over the other rows with the same
  label and `exp (32 · relu (s + 0.25) · (s - 0.25))` over the rows with another label; the row
  contributes `log1p` of the product of the two sums and the result is the mean over the rows.
  They differ in three ways, none of which changes the value:
  * the reference masks by filling the exponent with `-∞` (and `exp (-∞) = 0`), the kernel by
    selecting `0` after one shared `exp`;
  * the kernel walks the columns in eight chunks of 1024 and the rows in 32 blocks of 256, which
    only regroups finite sums;
  * the reference takes `a⁺ = relu (1.25 - s)`, the kernel `a⁺ = 1.25 - s`.  Under the precondition
    every entry is a real number and every row has a positive sum of squares, so the normalised rows
    are unit vectors, `s ≤ 1` by the Cauchy–Schwarz inequality, `1.25 - s > 0` and the `relu` is the
    identity.  (A zero row would make the normalisation `0 / 0`; the precondition excludes it.)

  Spec.lean states the loss as one function of the two arguments; RefSide.lean reads the reference's
  run as that function; KernelTrip / KernelChunk / KernelRows / KernelHost / KernelValue read the
  kernel program's run as the same function without the `relu`; SimBound.lean is the Cauchy–Schwarz
  step and PreDecode.lean reads the precondition.
-/
import proofs.«160342_j38628935860375_2_alg».proof.Defs
import proofs.«160342_j38628935860375_2_alg».proof.Proof.Gen.Kernel
import proofs.«160342_j38628935860375_2_alg».proof.Proof.Gen.Kernel.Frame
import proofs.«160342_j38628935860375_2_alg».proof.Proof.Gen.KernelIdeal
import proofs.«160342_j38628935860375_2_alg».proof.Proof.Gen.KernelIdeal.Frame
import proofs.«160342_j38628935860375_2_alg».proof.Proof.Gen.ReferenceIdeal
import proofs.«160342_j38628935860375_2_alg».proof.Proof.Gen.ReferenceIdeal.Run
import proofs.«160342_j38628935860375_2_alg».proof.Proof.Gen.Pre_finite_inputs
import proofs.«160342_j38628935860375_2_alg».proof.Proof.Spec
import proofs.«160342_j38628935860375_2_alg».proof.Proof.SimBound
import proofs.«160342_j38628935860375_2_alg».proof.Proof.PreDecode
import proofs.«160342_j38628935860375_2_alg».proof.Proof.RefSide
import proofs.«160342_j38628935860375_2_alg».proof.Proof.KernelValue
import Idealize.ShloMosaic.Adequacy
import Idealize.ShloMosaic.Init

noncomputable section

namespace Cert.Proof

open Idealize.ShloMosaic Idealize.SL.Sem

/-- The three programs run to the end and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to idealize it. -/
theorem preserves : Cert.preserves_Kernel_KernelIdeal := trivial

/-- From agreeing arguments that satisfy the precondition, the kernel program ends at the loss without the
    `relu` and the reference at the loss with it; the two are one number because every similarity is at most 1. -/
theorem algebraic : Cert.algebraic_KernelIdeal_ReferenceIdeal := by
  intro m ρ m' ρ' hpre hagree
  refine ⟨fun c => fun _ => Cert.Circle.loss'
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hpos⟩ := Cert.Circle.of_pre _ _ (hpre c)
  refine (Cert.ReferenceIdeal.RefValue.result_eq m' c).trans ?_
  rw [(hagree c).1, (hagree c).2]
  exact funext fun _ => (Cert.Circle.loss'_eq_loss _ _ (Cert.Circle.expoP'_eq_expoP_sim _ hfin hpos)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
